-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S27x2x1 : Shape := ⟨3, ![27, 2, 1]⟩
abbrev S13500000 : Shape := ⟨1, ![13500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S27x2x1 : S_.BroadcastsInDim S27x2x1 (![] : Fin 0 → Fin S27x2x1.rank)
  reducesTo_S27x2x1_S_d0_1_2 : S27x2x1.ReducesTo [0, 1, 2] S_

variable [Facts]

def fn {F : FTy → Type} [FloatOps F] (main_arg0 : FVec F S500000x128 .f32) (main_arg1 : FVec F S27x2x1 .f32) (main_arg2 : IVec S13500000 32) (main_arg3 : IVec S13500000 32) (main_arg4 : IVec S13500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S27x2x1 .f32 := Host.absf main_arg1
  let main_cst_0 : FVec F S_ .f32 := constant S_ .f32 0x7F800000#32
  let main_v5 : FVec F S27x2x1 .f32 := broadcastInDim S27x2x1 ![] bcast_S_S27x2x1 main_cst_0
  let main_v6 : IVec S27x2x1 1 := cmpf .olt main_v4 main_v5
  let main_c_1 : IVec S_ 1 := constantI S_ 1 1#1
  let main_v7 : IVec S_ 1 := (fun x v => Host.reduce IntOp.andi x v reducesTo_S27x2x1_S_d0_1_2 h_S_) main_v6 main_c_1
  let main_v8 : IVec S_ 1 := andi main_v3 main_v7
  main_v8
-- ==== Kernel.lean ====
abbrev S500000x128 : Shape := ⟨2, ![500000, 128]⟩
abbrev S27x2x1 : Shape := ⟨3, ![27, 2, 1]⟩
abbrev S13500000 : Shape := ⟨1, ![13500000]⟩
abbrev S500000x1 : Shape := ⟨2, ![500000, 1]⟩
abbrev S10000x128 : Shape := ⟨2, ![10000, 128]⟩
abbrev S10000x1 : Shape := ⟨2, ![10000, 1]⟩
abbrev S10000 : Shape := ⟨1, ![10000]⟩
abbrev S500000 : Shape := ⟨1, ![500000]⟩
abbrev S27x1x1 : Shape := ⟨3, ![27, 1, 1]⟩
abbrev S27 : Shape := ⟨1, ![27]⟩
abbrev S_ : Shape := ⟨0, ![]⟩
abbrev S13500000x1 : Shape := ⟨2, ![13500000, 1]⟩
abbrev S500001 : Shape := ⟨1, ![500001]⟩

abbrev nBuf : Space → Nat
  | .hbm => 59
  | .vmem => 12
  | .smem => 0
  | _ => 0

abbrev bufTy : (tb : Table) → Fin (tcTables nBuf tb) → BufTy
  | .hbm, ⟨0, _⟩ => ⟨S500000x128, .f32⟩
  | .hbm, ⟨1, _⟩ => ⟨S27x2x1, .f32⟩
  | .hbm, ⟨2, _⟩ => ⟨S13500000, .i32⟩
  | .hbm, ⟨3, _⟩ => ⟨S13500000, .i32⟩
  | .hbm, ⟨4, _⟩ => ⟨S13500000, .i32⟩
  | .hbm, ⟨5, _⟩ => ⟨S500000x1, .f32⟩
  | .hbm, ⟨6, _⟩ => ⟨S500000x1, .f32⟩
  | .hbm, ⟨7, _⟩ => ⟨S500000, .f32⟩
  | .hbm, ⟨8, _⟩ => ⟨S500000, .f32⟩
  | .hbm, ⟨9, _⟩ => ⟨S27x1x1, .f32⟩
  | .hbm, ⟨10, _⟩ => ⟨S27, .f32⟩
  | .hbm, ⟨11, _⟩ => ⟨S27x1x1, .f32⟩
  | .hbm, ⟨12, _⟩ => ⟨S27, .f32⟩
  | .hbm, ⟨13, _⟩ => ⟨S_, .i32⟩
  | .hbm, ⟨14, _⟩ => ⟨S13500000, .i32⟩
  | .hbm, ⟨15, _⟩ => ⟨S13500000, .i1⟩
  | .hbm, ⟨16, _⟩ => ⟨S_, .i32⟩
  | .hbm, ⟨17, _⟩ => ⟨S13500000, .i32⟩
  | .hbm, ⟨18, _⟩ => ⟨S13500000, .i32⟩
  | .hbm, ⟨19, _⟩ => ⟨S13500000, .i32⟩
  | .hbm, ⟨20, _⟩ => ⟨S13500000x1, .i32⟩
  | .hbm, ⟨21, _⟩ => ⟨S13500000, .f32⟩
  | .hbm, ⟨22, _⟩ => ⟨S_, .i32⟩
  | .hbm, ⟨23, _⟩ => ⟨S13500000, .i32⟩
  | .hbm, ⟨24, _⟩ => ⟨S13500000, .i1⟩
  | .hbm, ⟨25, _⟩ => ⟨S_, .i32⟩
  | .hbm, ⟨26, _⟩ => ⟨S13500000, .i32⟩
  | .hbm, ⟨27, _⟩ => ⟨S13500000, .i32⟩
  | .hbm, ⟨28, _⟩ => ⟨S13500000, .i32⟩
  | .hbm, ⟨29, _⟩ => ⟨S13500000x1, .i32⟩
  | .hbm, ⟨30, _⟩ => ⟨S13500000, .f32⟩
  | .hbm, ⟨31, _⟩ => ⟨S_, .i32⟩
  | .hbm, ⟨32, _⟩ => ⟨S13500000, .i32⟩
  | .hbm, ⟨33, _⟩ => ⟨S13500000, .i1⟩
  | .hbm, ⟨34, _⟩ => ⟨S_, .i32⟩
  | .hbm, ⟨35, _⟩ => ⟨S13500000, .i32⟩
  | .hbm, ⟨36, _⟩ => ⟨S13500000, .i32⟩
  | .hbm, ⟨37, _⟩ => ⟨S13500000, .i32⟩
  | .hbm, ⟨38, _⟩ => ⟨S13500000x1, .i32⟩
  | .hbm, ⟨39, _⟩ => ⟨S13500000, .f32⟩
  | .hbm, ⟨40, _⟩ => ⟨S_, .i32⟩
  | .hbm, ⟨41, _⟩ => ⟨S13500000, .i32⟩
  | .hbm, ⟨42, _⟩ => ⟨S13500000, .i1⟩
  | .hbm, ⟨43, _⟩ => ⟨S_, .i32⟩
  | .hbm, ⟨44, _⟩ => ⟨S13500000, .i32⟩
  | .hbm, ⟨45, _⟩ => ⟨S13500000, .i32⟩
  | .hbm, ⟨46, _⟩ => ⟨S13500000, .i32⟩
  | .hbm, ⟨47, _⟩ => ⟨S13500000x1, .i32⟩
  | .hbm, ⟨48, _⟩ => ⟨S13500000, .f32⟩
  | .hbm, ⟨49, _⟩ => ⟨S13500000, .f32⟩
  | .hbm, ⟨50, _⟩ => ⟨S13500000, .f32⟩
  | .hbm, ⟨51, _⟩ => ⟨S13500000, .f32⟩
  | .hbm, ⟨52, _⟩ => ⟨S_, .f32⟩
  | .hbm, ⟨53, _⟩ => ⟨S500001, .f32⟩
  | .hbm, ⟨54, _⟩ => ⟨S13500000x1, .i32⟩
  | .hbm, ⟨55, _⟩ => ⟨S500001, .f32⟩
  | .hbm, ⟨56, _⟩ => ⟨S500000, .f32⟩
  | .hbm, ⟨57, _⟩ => ⟨S500000x1, .f32⟩
  | .hbm, ⟨58, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  slices_S27x2x1_S27x1x1_0_0_0 : S27x2x1.Slices ![0, 0, 0] S27x1x1
  shapeCasts_S27x1x1_S27 : S27x1x1.ShapeCasts S27
  slices_S27x2x1_S27x1x1_0_1_0 : S27x2x1.Slices ![0, 1, 0] S27x1x1
  bcast_S_S13500000 : S_.BroadcastsInDim S13500000 (![] : Fin 0 → Fin S13500000.rank)
  bcast_S13500000_S13500000x1_0 : S13500000.BroadcastsInDim S13500000x1 (![0] : Fin 1 → Fin S13500000x1.rank)
  bcast_S_S500001 : S_.BroadcastsInDim S500001 (![] : Fin 0 → Fin S500001.rank)
  slices_S500001_S500000_0 : S500001.Slices ![0] S500000
  shapeCasts_S500000_S500000x1 : S500000.ShapeCasts S500000x1
  shapeCasts_S10000x1_S10000x1 : S10000x1.ShapeCasts S10000x1
  broadcasts_S10000x1_S10000x128 : S10000x1.Broadcasts S10000x128
  gather_S500000_S13500000x1_S13500000_n_0_n_n_0_1_1_wf : GatherDims.WF S500000 S13500000x1 S13500000 [] [0] [] [0] [] 1 ![1]
  gather_S27_S13500000x1_S13500000_n_0_n_n_0_1_1_wf : GatherDims.WF S27 S13500000x1 S13500000 [] [0] [] [0] [] 1 ![1]
  scatter_S500001_S13500000x1_S13500000_n_0_0_1_wf : ScatterDims.WF S500001 S13500000x1 S13500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S500000x1.size a
  hwx0_2 : ∀ i : grid0.Coords, EltTy.bits .f32 = 32 ∨ (Rect.block (s := S500000x1) S10000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S500000x1.size a
  hwx1_1 : ∀ i : grid1.Coords, EltTy.bits .f32 = 32 ∨ (Rect.block (s := S500000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S500000x128.size a
  hwx1_2 : ∀ i : grid1.Coords, EltTy.bits .f32 = 32 ∨ (Rect.block (s := S500000x128) S10000x128.size (cc1_transform_2 i) (hinb1_2 i)).WholeWords (EltTy.packing .f32)

variable [Facts₀]

def gather_S500000_S13500000x1_S13500000_n_0_n_n_0_1_1 : GatherDims S500000 S13500000x1 S13500000 where
  offsetDims := []
  collapsedSliceDims := [0]
  operandBatchingDims := []
  startIndicesBatchingDims := []
  startIndexMap := [0]
  indexVectorDim := 1
  sliceSizes := ![1]
  wf := gather_S500000_S13500000x1_S13500000_n_0_n_n_0_1_1_wf
def gather_S27_S13500000x1_S13500000_n_0_n_n_0_1_1 : GatherDims S27 S13500000x1 S13500000 where
  offsetDims := []
  collapsedSliceDims := [0]
  operandBatchingDims := []
  startIndicesBatchingDims := []
  startIndexMap := [0]
  indexVectorDim := 1
  sliceSizes := ![1]
  wf := gather_S27_S13500000x1_S13500000_n_0_n_n_0_1_1_wf
def scatter_S500001_S13500000x1_S13500000_n_0_0_1 : ScatterDims S500001 S13500000x1 S13500000 where
  updateWindowDims := []
  insertedWindowDims := [0]
  scatterDimsToOperandDims := [0]
  indexVectorDim := 1
  wf := scatter_S500001_S13500000x1_S13500000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S10000x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S500000x128 : Shape := ⟨2, ![500000, 128]⟩
abbrev S27x2x1 : Shape := ⟨3, ![27, 2, 1]⟩
abbrev S13500000 : Shape := ⟨1, ![13500000]⟩
abbrev S_ : Shape := ⟨0, ![]⟩
abbrev S500000 : Shape := ⟨1, ![500000]⟩
abbrev S500000x1 : Shape := ⟨2, ![500000, 1]⟩
abbrev S500000x2 : Shape := ⟨2, ![500000, 2]⟩
abbrev S13500000x1 : Shape := ⟨2, ![13500000, 1]⟩
abbrev S13500000x2 : Shape := ⟨2, ![13500000, 2]⟩
abbrev S500001 : Shape := ⟨1, ![500001]⟩

abbrev nBuf : Space → Nat
  | .hbm => 57
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S27x2x1, .f32⟩
  | .hbm, ⟨2, _⟩ => ⟨S13500000, .i32⟩
  | .hbm, ⟨3, _⟩ => ⟨S13500000, .i32⟩
  | .hbm, ⟨4, _⟩ => ⟨S13500000, .i32⟩
  | .hbm, ⟨5, _⟩ => ⟨S_, .f32⟩
  | .hbm, ⟨6, _⟩ => ⟨S500000, .f32⟩
  | .hbm, ⟨7, _⟩ => ⟨S_, .f32⟩
  | .hbm, ⟨8, _⟩ => ⟨S500000, .f32⟩
  | .hbm, ⟨9, _⟩ => ⟨S500000, .f32⟩
  | .hbm, ⟨10, _⟩ => ⟨S_, .f32⟩
  | .hbm, ⟨11, _⟩ => ⟨S500000, .f32⟩
  | .hbm, ⟨12, _⟩ => ⟨S500000x1, .f32⟩
  | .hbm, ⟨13, _⟩ => ⟨S500000x1, .f32⟩
  | .hbm, ⟨14, _⟩ => ⟨S500000x2, .f32⟩
  | .hbm, ⟨15, _⟩ => ⟨S_, .i32⟩
  | .hbm, ⟨16, _⟩ => ⟨S13500000, .i32⟩
  | .hbm, ⟨17, _⟩ => ⟨S13500000, .i1⟩
  | .hbm, ⟨18, _⟩ => ⟨S_, .i32⟩
  | .hbm, ⟨19, _⟩ => ⟨S13500000, .i32⟩
  | .hbm, ⟨20, _⟩ => ⟨S13500000, .i32⟩
  | .hbm, ⟨21, _⟩ => ⟨S13500000, .i32⟩
  | .hbm, ⟨22, _⟩ => ⟨S13500000x1, .i32⟩
  | .hbm, ⟨23, _⟩ => ⟨S13500000x2, .f32⟩
  | .hbm, ⟨24, _⟩ => ⟨S_, .i32⟩
  | .hbm, ⟨25, _⟩ => ⟨S13500000, .i32⟩
  | .hbm, ⟨26, _⟩ => ⟨S13500000, .i1⟩
  | .hbm, ⟨27, _⟩ => ⟨S_, .i32⟩
  | .hbm, ⟨28, _⟩ => ⟨S13500000, .i32⟩
  | .hbm, ⟨29, _⟩ => ⟨S13500000, .i32⟩
  | .hbm, ⟨30, _⟩ => ⟨S13500000, .i32⟩
  | .hbm, ⟨31, _⟩ => ⟨S_, .i32⟩
  | .hbm, ⟨32, _⟩ => ⟨S13500000, .i32⟩
  | .hbm, ⟨33, _⟩ => ⟨S13500000, .i32⟩
  | .hbm, ⟨34, _⟩ => ⟨S13500000x1, .i32⟩
  | .hbm, ⟨35, _⟩ => ⟨S13500000x1, .i32⟩
  | .hbm, ⟨36, _⟩ => ⟨S13500000x2, .i32⟩
  | .hbm, ⟨37, _⟩ => ⟨S13500000x2, .f32⟩
  | .hbm, ⟨38, _⟩ => ⟨S13500000x2, .f32⟩
  | .hbm, ⟨39, _⟩ => ⟨S_, .f32⟩
  | .hbm, ⟨40, _⟩ => ⟨S13500000, .f32⟩
  | .hbm, ⟨41, _⟩ => ⟨S_, .f32⟩
  | .hbm, ⟨42, _⟩ => ⟨S500001, .f32⟩
  | .hbm, ⟨43, _⟩ => ⟨S13500000x1, .i32⟩
  | .hbm, ⟨44, _⟩ => ⟨S500001, .f32⟩
  | .hbm, ⟨45, _⟩ => ⟨S500000, .f32⟩
  | .hbm, ⟨46, _⟩ => ⟨S500000, .f32⟩
  | .hbm, ⟨47, _⟩ => ⟨S500000, .f32⟩
  | .hbm, ⟨48, _⟩ => ⟨S_, .f32⟩
  | .hbm, ⟨49, _⟩ => ⟨S500000, .f32⟩
  | .hbm, ⟨50, _⟩ => ⟨S500000, .f32⟩
  | .hbm, ⟨51, _⟩ => ⟨S_, .f32⟩
  | .hbm, ⟨52, _⟩ => ⟨S500000, .f32⟩
  | .hbm, ⟨53, _⟩ => ⟨S500000, .f32⟩
  | .hbm, ⟨54, _⟩ => ⟨S500000x1, .f32⟩
  | .hbm, ⟨55, _⟩ => ⟨S500000x128, .f32⟩
  | .hbm, ⟨56, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S13500000 : S_.BroadcastsInDim S13500000 (![] : Fin 0 → Fin S13500000.rank)
  bcast_S13500000_S13500000x1_0 : S13500000.BroadcastsInDim S13500000x1 (![0] : Fin 1 → Fin S13500000x1.rank)
  concatenates_S13500000x1_S13500000x1_S13500000x2_d1 : Shape.Concatenates [S13500000x1, S13500000x1] S13500000x2 1
  reducesTo_S13500000x2_S13500000_d1 : S13500000x2.ReducesTo [1] S13500000
  bcast_S_S500001 : S_.BroadcastsInDim S500001 (![] : Fin 0 → Fin S500001.rank)
  slices_S500001_S500000_0 : S500001.Slices ![0] S500000
  bcast_S500000x1_S500000x128_0_1 : S500000x1.BroadcastsInDim S500000x128 (![0, 1] : Fin 2 → Fin S500000x128.rank)
  gather_S500000x2_S13500000x1_S13500000x2_1_0_n_n_0_1_12_wf : GatherDims.WF S500000x2 S13500000x1 S13500000x2 [1] [0] [] [0] [] 1 ![1, 2]
  gather_S27x2x1_S13500000x2_S13500000x2_1_02_n_n_02_1_121_wf : GatherDims.WF S27x2x1 S13500000x2 S13500000x2 [1] [0, 2] [] [0, 2] [] 1 ![1, 2, 1]
  scatter_S500001_S13500000x1_S13500000_n_0_0_1_wf : ScatterDims.WF S500001 S13500000x1 S13500000 [] [0] [0] 1

variable [Facts₀]

def gather_S500000x2_S13500000x1_S13500000x2_1_0_n_n_0_1_12 : GatherDims S500000x2 S13500000x1 S13500000x2 where
  offsetDims := [1]
  collapsedSliceDims := [0]
  operandBatchingDims := []
  startIndicesBatchingDims := []
  startIndexMap := [0]
  indexVectorDim := 1
  sliceSizes := ![1, 2]
  wf := gather_S500000x2_S13500000x1_S13500000x2_1_0_n_n_0_1_12_wf
def gather_S27x2x1_S13500000x2_S13500000x2_1_02_n_n_02_1_121 : GatherDims S27x2x1 S13500000x2 S13500000x2 where
  offsetDims := [1]
  collapsedSliceDims := [0, 2]
  operandBatchingDims := []
  startIndicesBatchingDims := []
  startIndexMap := [0, 2]
  indexVectorDim := 1
  sliceSizes := ![1, 2, 1]
  wf := gather_S27x2x1_S13500000x2_S13500000x2_1_02_n_n_02_1_121_wf
def scatter_S500001_S13500000x1_S13500000_n_0_0_1 : ScatterDims S500001 S13500000x1 S13500000 where
  updateWindowDims := []
  insertedWindowDims := [0]
  scatterDimsToOperandDims := [0]
  indexVectorDim := 1
  wf := scatter_S500001_S13500000x1_S13500000_n_0_0_1_wf

class Facts : Prop extends Facts₀ where

variable [Facts]
-- ==== Proof.KernelRun.lean ====
/-
  The idealized kernel's run with its result array NAMED.

  The program is a pooling region, a stretch of host operations, and a gating region. The run below is the launch of
  those three segments, read at the end against the final state: every unscoped buffer holds the contents at the last
  segment boundary (`W3`). So the result buffer holds `W3` at its reference, and each argument holds what it held at
  launch.
-/
import proofs.«128960_j83717502534258_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v43) = W3 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v43 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Run

end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Bodies.lean ====
/-
  The two kernel bodies, read at an index, with floats as extended reals.

  The pooling body holds a block of 10000 rows of 128 channels. Its first store is, in row `p`, the sum of the
  row's 128 entries divided by 128; its second store is, in row `p`, the maximum of the row's entries, folded from
  minus infinity. Both are one-column blocks, so the column coordinate plays no part.

  The gating body holds a block of rows and a one-column block `g`. Its store is, at row `p` and channel `c`, the
  entry times the logistic function of `g` at row `p`.
-/
import proofs.«128960_j83717502534258_2_alg».proof.Proof.Gen.KernelIdeal.Skeleton
import proofs.«128960_j83717502534258_2_alg».proof.Proof.LibRowDots
import proofs.«128960_j83717502534258_2_alg».proof.Proof.LibColumns
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Bodies

open Cert.KernelIdeal Cert.KernelIdeal.Gen Idealize.ShloMosaic Idealize.ShloMosaic.ValueIdx Idealize.ShloMosaic.RowDots

/-- The mean store at row `p`: the row's sum over the 128 channels, divided by the float 128. -/
theorem mean_apply (x : Vec Ideal S10000x128 .f32) (p : Fin 10000) (u : Fin 1) :
    k0_pay1 (F := Ideal) x (ix2 p u)
      = Ideal.div (∑ k : Fin 128, x (ix2 p k)) (Ideal.ofBits .f32 0x43000000#32) := by
  unfold k0_pay1
  show Ideal.div (shapeCast S10000x1 (multiReduction (F := Ideal) .add [1] S10000 x 0x00000000#32 reduces_S10000x128_S10000 (.inl rfl) rfl)
      shapeCasts_S10000_S10000x1 (ix2 p u)) (Ideal.ofBits .f32 0x43000000#32) = _
  refine congrArg (Ideal.div · (Ideal.ofBits .f32 0x43000000#32)) ?_
  refine (shapeCast_a_a1_apply _ shapeCasts_S10000_S10000x1 p u).trans ?_
  exact rowSum_apply (A := 10000) (B := 128) (φ := .f32) x 0x00000000#32 reduces_S10000x128_S10000 (.inl rfl) rfl p

/-- The maximum store at row `p`: the fold of `max` over the row's 128 channels, from minus infinity. -/
theorem max_apply (x : Vec Ideal S10000x128 .f32) (p : Fin 10000) (u : Fin 1) :
    k0_pay2 (F := Ideal) x (ix2 p u)
      = (Finset.univ : Finset (Fin 128)).fold max (Ideal.ofBits .f32 0xFF800000#32) (fun k => x (ix2 p k)) := by
  unfold k0_pay2
  show shapeCast S10000x1 (multiReduction (F := Ideal) .maximumf [1] S10000 x 0xFF800000#32 reduces_S10000x128_S10000 (.inl rfl) rfl)
      shapeCasts_S10000_S10000x1 (ix2 p u) = _
  refine (shapeCast_a_a1_apply _ shapeCasts_S10000_S10000x1 p u).trans ?_
  exact rowMax_apply (A := 10000) (B := 128) (φ := .f32) x 0xFF800000#32 reduces_S10000x128_S10000 (.inl rfl) rfl p

/-- The gating store at row `p`, channel `c`: the entry times the logistic function of the gate column at row `p`. -/
theorem gate_apply (g : Vec Ideal S10000x1 .f32) (x : Vec Ideal S10000x128 .f32) (p : Fin 10000) (c : Fin 128) :
    k1_pay1 (F := Ideal) g x (ix2 p c) = x (ix2 p c) * Ideal.logistic (g (ix2 p (0 : Fin 1))) := by
  unfold k1_pay1
  show x (ix2 p c) * broadcastTo S10000x128 (logistic (F := Ideal) (shapeCast S10000x1 g shapeCasts_S10000x1_S10000x1))
      broadcasts_S10000x1_S10000x128 (ix2 p c) = _
  refine congrArg (x (ix2 p c) * ·) ?_
  refine (broadcastTo_a1_ab_apply _ broadcasts_S10000x1_S10000x128 p c).trans ?_
  show Ideal.logistic (shapeCast S10000x1 g shapeCasts_S10000x1_S10000x1 (ix2 p (0 : Fin 1))) = _
  rw [shapeCast_self]

end Cert.KernelIdeal.Bodies

end
-- ==== Proof.LibGatherRows.lean ====
/-
  THE ROW GATHER READ AT AN INDEX.

  A row gather takes, for each of `E` start indices, one whole row of an `[N, C]` operand: `"stablehlo.gather"` with
  offset_dims = [1], collapsed_slice_dims = [0], start_index_map = [0], index_vector_dim = 1 and slice sizes [1, C], over
  start indices of shape `[E, 1]` (what indexing an array by an integer vector along its leading axis lowers to).
  Element `(e, q)` of the result is the operand at row `idx[e, 0]` — read SIGNED and CLAMPED into `[0, N − 1]`, so
  that the one-row slice fits — and column `q` (`gather_rows_apply`). The clamp is the identity on a start index already
  inside the range (`clampRow_of_toInt_eq`). The extents and the index width are arbitrary.

  Road: on these dimension numbers the operand coordinate on axis 0 is the clamped start alone (no batching axis, the
  axis is collapsed), and on axis 1 it is the result's column alone (the start index map does not name that axis).
-/
import Idealize.ShloMosaic.PureOps.ShapeOps
import Idealize.ShloMosaic.Lib.ValueIdx

namespace Idealize.ShloMosaic.GatherRows

open Idealize.ShloMosaic Idealize.ShloMosaic.ValueIdx

variable {α : Type}

/-- The row a start-index word addresses: the word read signed, negative words at row 0, words past the end at the
    last row. -/
def clampRow (N : Nat) (hN : 0 < N) {w : Nat} (b : BitVec w) : Fin N := ⟨min b.toInt.toNat (N - 1), by omega⟩

/-- A start index that is a row number is not moved by the clamp. -/
theorem clampRow_of_toInt_eq {N : Nat} (hN : 0 < N) {w : Nat} (b : BitVec w) (n : Fin N) (h : b.toInt = (n.val : Int)) :
    clampRow N hN b = n := by
  apply Fin.ext
  show min b.toInt.toNat (N - 1) = n.val
  have := n.isLt
  rw [h]; omega

/-- The dimension numbers of a row gather from an `[N, C]` operand through `[E, 1]` start indices. -/
abbrev rowDims (N E C : Nat)
    (wf : GatherDims.WF (⟨2, ![N, C]⟩ : Shape) ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the clamped row of start index `e`, column `q`. -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (clampRow N hN (idx (ix2 e (0 : Fin 1)))) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    have hs : (rowDims N E C wf).start (ix2 e q) idx 1 = 0 := by
      unfold GatherDims.start
      have h : ¬ (1 : Fin 2) ∈ ([0] : List (Fin 2)) := by decide
      rw [dif_neg (show ¬ (1 : Fin 2) ∈ (rowDims N E C wf).startIndexMap from h)]
    have ho : (rowDims N E C wf).offCoord (ix2 e q) 1 = q.val := by
      unfold GatherDims.offCoord
      have h : (1 : Fin 2) ∈ (rowDims N E C wf).sKept :=
        (GatherDims.mem_sKept _ _).mpr ⟨(by decide : ¬ (1 : Fin 2) ∈ ([0] : List (Fin 2))), List.not_mem_nil⟩
      rw [dif_pos h]
      rfl
    rw [hs, ho]; omega

/-- The same for ANY dimension numbers between these shapes whose fields are a row gather's (for a record stated field
    by field, each hypothesis is `rfl`). -/
theorem gather_rows_apply' {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  obtain ⟨od, cd, ob, sb, sm, iv, ss, wf⟩ := d
  simp only at h1 h2 h3 h4 h5 h6 h7
  subst h1 h2 h3 h4 h5 h6 h7
  exact gather_rows_apply hN wf x idx e q

end Idealize.ShloMosaic.GatherRows
-- ==== Proof.Spec.lean ====
/-
  What the layer computes, as functions of whole arrays, with floats as extended reals.

  The layer pools each voxel's 128 channels to a mean and a maximum, runs a 27-tap sparse convolution over those two
  pooled channels, given as a list of 13500000 (tap, input voxel, output voxel) index triples, and gates every channel
  of a voxel by the logistic function of the convolution's value there.

  `rowMean X r` is the sum of row `r`'s 128 channels divided by the float 128, and `rowMax X r` is the maximum of the
  row's channels, folded from minus infinity: the channel-wise average and maximum pooling of one voxel's features.
  `meanCol` and `maxCol` are those as one-column arrays. `gated X g` scales every channel of row `r` of `X` by the
  logistic function of the one-column array `g` at row `r`.
-/
import Idealize.ShloMosaic.PureOps.Ideal
import Idealize.ShloMosaic.Lib.ValueIdx
import proofs.«128960_j83717502534258_2_alg».proof.Proof.LibGatherRows

noncomputable section

open scoped BigOperators

namespace Cert.Spec

open Idealize.ShloMosaic Idealize.ShloMosaic.ValueIdx

/-- The features: 500000 rows of 128 channels. -/
abbrev SX : Shape := ⟨2, ![500000, 128]⟩
/-- One value per row, kept as a column. -/
abbrev SC : Shape := ⟨2, ![500000, 1]⟩

/-- The mean of row `r`: the sum of its 128 channels divided by the float 128. -/
def rowMean (X : SX.Idx → EReal) (r : Fin 500000) : EReal :=
  Ideal.div (∑ k : Fin 128, X (ix2 r k)) (Ideal.ofBits .f32 0x43000000#32)

/-- The maximum of row `r`: the fold of `max` over its 128 channels, from minus infinity. -/
def rowMax (X : SX.Idx → EReal) (r : Fin 500000) : EReal :=
  (Finset.univ : Finset (Fin 128)).fold max (Ideal.ofBits .f32 0xFF800000#32) (fun k => X (ix2 r k))

/-- The row means as a one-column array. -/
def meanCol (X : SX.Idx → EReal) : SC.Idx → EReal := fun i => rowMean X ⟨(i 0).val, (i 0).isLt⟩

/-- The row maxima as a one-column array. -/
def maxCol (X : SX.Idx → EReal) : SC.Idx → EReal := fun i => rowMax X ⟨(i 0).val, (i 0).isLt⟩

/-- Every channel of row `r` times the logistic function of the column `g` at row `r`. -/
def gated (X : SX.Idx → EReal) (g : SC.Idx → EReal) : SX.Idx → EReal :=
  fun i => X i * Ideal.logistic (g (ix2 (⟨(i 0).val, (i 0).isLt⟩ : Fin 500000) (0 : Fin 1)))

/-! ## The index pairs of the sparse convolution -/

/-- The convolution weight: 27 taps, 2 pooled channels, 1 output channel. -/
abbrev SW : Shape := ⟨3, ![27, 2, 1]⟩
/-- One entry per index pair. -/
abbrev SP : Shape := ⟨1, ![13500000]⟩

/-- A start-index word as numpy indexing reads it against an axis of extent `n`: a negative word counts from the end. -/
def wrapWord (n b : BitVec 32) : BitVec 32 := Scalar.select (IntOp.cmpi .slt b 0#32) (IntOp.addi b n) b

/-- The features row pair `e` reads: its input-voxel word, wrapped, then clamped into the 500000 rows. -/
def pairRow (iidx : SP.Idx → BitVec 32) (e : Fin 13500000) : Fin 500000 :=
  GatherRows.clampRow 500000 (by decide) (wrapWord 500000#32 (iidx (ix1 e)))

/-- The tap pair `e` reads: its tap word, wrapped, then clamped into the 27 taps. -/
def pairTap (kidx : SP.Idx → BitVec 32) (e : Fin 13500000) : Fin 27 :=
  GatherRows.clampRow 27 (by decide) (wrapWord 27#32 (kidx (ix1 e)))

/-- What pair `e` contributes: the mean of its row times the tap's weight for the mean channel, plus the maximum of
    its row times the tap's weight for the maximum channel. -/
def pairValue (X : SX.Idx → EReal) (w : SW.Idx → EReal) (kidx iidx : SP.Idx → BitVec 32) : SP.Idx → EReal := fun p =>
  rowMean X (pairRow iidx ⟨(p 0).val, (p 0).isLt⟩)
      * w (ix3 (pairTap kidx ⟨(p 0).val, (p 0).isLt⟩) (0 : Fin 2) (0 : Fin 1))
    + rowMax X (pairRow iidx ⟨(p 0).val, (p 0).isLt⟩)
      * w (ix3 (pairTap kidx ⟨(p 0).val, (p 0).isLt⟩) (1 : Fin 2) (0 : Fin 1))

end Cert.Spec

end
-- ==== Proof.Arrays.lean ====
/-
  From blocks to whole arrays, for the two pipelined regions, with floats as extended reals.

  Both regions walk the 500000 rows in 50 blocks of 10000 rows: at grid point `t` every window's block starts at
  row `10000 * t` (and at column 0). So row `p` of the point's block is row `10000 * t + p` of the array, the blocks are
  disjoint, and the point covering row `r` is `r / 10000`.

  Pooling region: whatever the features array `X` holds when the region is entered, its two output arrays end holding
  the row means and the row maxima of `X`, as one-column arrays.
  Gating region: whatever the features array `X` and the one-column array `g` hold when the region is entered, its
  output array ends holding every channel of row `r` of `X` times the logistic function of `g` at row `r`.
-/
import proofs.«128960_j83717502534258_2_alg».proof.Proof.Gen.KernelIdeal.Frame
import proofs.«128960_j83717502534258_2_alg».proof.Proof.Bodies
import proofs.«128960_j83717502534258_2_alg».proof.Proof.Spec
import Idealize.ShloMosaic.Lib.Pipeline.Value
import Idealize.ShloMosaic.Lib.ValueIdx

noncomputable section

open scoped BigOperators

namespace Cert.KernelIdeal.Arrays

open Cert.KernelIdeal Cert.KernelIdeal.Gen Cert.Spec Idealize.ShloMosaic Idealize.ShloMosaic.TcCoe Idealize.SL.Sem
open Idealize.ShloMosaic.ValueIdx
open Idealize.ShloMosaic.Pipeline (Dat)

/-! ## One block, over plain variables -/

/-- If row `p` of the block `x0` is row `o + p` of `X`, the body's mean store at row `p` is the mean of row `o + p` of `X`. -/
theorem mean_block (X : SX.Idx → EReal) (x0 : Vec Ideal S10000x128 .f32) (o : Nat)
    (hx : ∀ (p : Fin 10000) (k : Fin 128) (r : Fin 500000), r.val = o + p.val → x0 (ix2 p k) = X (ix2 r k))
    (y : S10000x1.Idx) (i : SC.Idx) (hi : (i 0).val = o + (y 0).val) :
    k0_pay1 (F := Ideal) x0 y = meanCol X i := by
  obtain ⟨p, u, rfl⟩ : ∃ (p : Fin 10000) (u : Fin 1), y = ix2 p u := ⟨y 0, y 1, eq_ix2 y⟩
  refine (Bodies.mean_apply x0 p u).trans ?_
  unfold meanCol rowMean
  exact congrArg (Ideal.div · (Ideal.ofBits .f32 0x43000000#32))
    (Finset.sum_congr rfl fun k _ => hx p k ⟨(i 0).val, (i 0).isLt⟩ hi)

/-- The same for the maximum store. -/
theorem max_block (X : SX.Idx → EReal) (x0 : Vec Ideal S10000x128 .f32) (o : Nat)
    (hx : ∀ (p : Fin 10000) (k : Fin 128) (r : Fin 500000), r.val = o + p.val → x0 (ix2 p k) = X (ix2 r k))
    (y : S10000x1.Idx) (i : SC.Idx) (hi : (i 0).val = o + (y 0).val) :
    k0_pay2 (F := Ideal) x0 y = maxCol X i := by
  obtain ⟨p, u, rfl⟩ : ∃ (p : Fin 10000) (u : Fin 1), y = ix2 p u := ⟨y 0, y 1, eq_ix2 y⟩
  refine (Bodies.max_apply x0 p u).trans ?_
  unfold maxCol rowMax
  exact congrArg (fun f => (Finset.univ : Finset (Fin 128)).fold max (Ideal.ofBits .f32 0xFF800000#32) f)
    (funext fun k => hx p k ⟨(i 0).val, (i 0).isLt⟩ hi)

/-- If row `p` of the blocks `x0` and `x1` is row `o + p` of `X` and of `g`, the gating store at `(p, k)` is the gated
    array at `(o + p, k)`. -/
theorem gate_block (X : SX.Idx → EReal) (g : SC.Idx → EReal) (x0 : Vec Ideal S10000x128 .f32) (x1 : Vec Ideal S10000x1 .f32)
    (o : Nat)
    (hx : ∀ (p : Fin 10000) (k : Fin 128) (i : SX.Idx), (i 0).val = o + p.val → (i 1).val = k.val → x0 (ix2 p k) = X i)
    (hg : ∀ (p : Fin 10000) (r : Fin 500000), r.val = o + p.val → x1 (ix2 p (0 : Fin 1)) = g (ix2 r (0 : Fin 1)))
    (y : S10000x128.Idx) (i : SX.Idx) (h0 : (i 0).val = o + (y 0).val) (h1 : (i 1).val = (y 1).val) :
    k1_pay1 (F := Ideal) x1 x0 y = gated X g i := by
  obtain ⟨p, k, rfl⟩ : ∃ (p : Fin 10000) (k : Fin 128), y = ix2 p k := ⟨y 0, y 1, eq_ix2 y⟩
  refine (Bodies.gate_apply x1 x0 p k).trans ?_
  unfold gated
  rw [hx p k i h0 h1, hg p ⟨(i 0).val, (i 0).isLt⟩ h0]

/-! ## The grid -/

variable (V : (c : Dev nD) → (b : Ref sig .tc) → Buf (Elt Ideal) ((c : Thread nD τ).loc b))

theorem zero_off : (![0, 0] : Fin 2 → Nat) = fun _ => 0 := funext fun a => by fin_cases a <;> rfl

/-- Pooling region: at every point the three windows' blocks start at one row block and at column block 0. -/
theorem starts0 : ∀ t : Fin cfg0.N,
    win0_0.index t (0 : Fin 2) = win0_1.index t (0 : Fin 2) ∧ win0_0.index t (1 : Fin 2) = 0
    ∧ win0_2.index t (0 : Fin 2) = win0_1.index t (0 : Fin 2) ∧ win0_1.index t (1 : Fin 2) = 0
    ∧ win0_2.index t (1 : Fin 2) = 0 ∧ win0_1.index t (0 : Fin 2) ≤ 49 :=
  (by decide +kernel : ∀ t : Fin grid0.N, _)

/-- Every row block is some point's. -/
theorem onto0 : ∀ q : Fin 50, ∃ t : Fin cfg0.N, win0_1.index t (0 : Fin 2) = q.val :=
  (by decide +kernel : ∀ q : Fin 50, ∃ t : Fin grid0.N, win0_1.index t (0 : Fin 2) = q.val)

/-- Gating region: the same. -/
theorem starts1 : ∀ t : Fin cfg1.N,
    win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (1 : Fin 2) = 0 ∧ win1_2.index t (0 : Fin 2) ≤ 49 :=
  (by decide +kernel : ∀ t : Fin grid1.N, _)

theorem onto1 : ∀ q : Fin 50, ∃ t : Fin cfg1.N, win1_2.index t (0 : Fin 2) = q.val :=
  (by decide +kernel : ∀ q : Fin 50, ∃ t : Fin grid1.N, win1_2.index t (0 : Fin 2) = q.val)

/-! ## The pooling region's two output arrays -/

/-- Row `p` of the features block at point `t` is row `10000 * (row block) + p` of the features array. -/
theorem feat_block0 (c : Dev nD) (t : Fin cfg0.N) (p : Fin 10000) (k : Fin 128) (r : Fin 500000)
    (hr : r.val = win0_1.index t (0 : Fin 2) * 10000 + p.val) :
    iblk0 V c 0 t (ix2 p k) = V c main_arg0 (ix2 r k) := by
  obtain ⟨e0, e1, e2, e3, e4, e5⟩ := starts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- What point `t` writes back to the mean window is block `t` of the row means of the features array. -/
theorem flushed_mean (c : Dev nD) (t : Fin cfg0.N) :
    (dat0 V c).flushed 1 t = ((cfg0.win 1).blk t).view.read (Elt Ideal) (meanCol (V c main_arg0)) := by
  show (cfg0.win 1).cut (grid0.coords t) ((dat0 V c).after 1 t) = _
  rw [after0_1]
  unfold out0_1
  rw [View.canon_unit_zero zero_off]
  simp only [View.ld_unit_zero (S := S10000x128) zero_off]
  funext j
  show k0_pay1 (F := Ideal) (iblk0 V c 0 t) j = meanCol (V c main_arg0) (((cfg0.win 1).blk t).view.emb j)
  refine mean_block (V c main_arg0) (iblk0 V c 0 t) (win0_1.index t (0 : Fin 2) * 10000)
    (fun p k r hr => feat_block0 V c t p k r hr) j (((cfg0.win 1).blk t).view.emb j) ?_
  show win0_1.index t (0 : Fin 2) * 10000 + 1 * (j 0).val = _
  omega

/-- The same for the maximum window. -/
theorem flushed_max (c : Dev nD) (t : Fin cfg0.N) :
    (dat0 V c).flushed 2 t = ((cfg0.win 2).blk t).view.read (Elt Ideal) (maxCol (V c main_arg0)) := by
  show (cfg0.win 2).cut (grid0.coords t) ((dat0 V c).after 2 t) = _
  rw [after0_2]
  unfold out0_2
  rw [View.canon_unit_zero zero_off]
  simp only [View.ld_unit_zero (S := S10000x128) zero_off]
  obtain ⟨e0, e1, e2, e3, e4, e5⟩ := starts0 t
  funext j
  show k0_pay2 (F := Ideal) (iblk0 V c 0 t) j = maxCol (V c main_arg0) (((cfg0.win 2).blk t).view.emb j)
  refine max_block (V c main_arg0) (iblk0 V c 0 t) (win0_1.index t (0 : Fin 2) * 10000)
    (fun p k r hr => feat_block0 V c t p k r hr) j (((cfg0.win 2).blk t).view.emb j) ?_
  show win0_2.index t (0 : Fin 2) * 10000 + 1 * (j 0).val = _
  omega

/-- An index of a one-column array is in point `t`'s block iff each coordinate is in the block's range. -/
theorem mem_blk_mean (t : Fin cfg0.N) (i : S500000x1.Idx) :
    i ∈ ((cfg0.win 1).blk t).view.set ↔ ∀ a : Fin 2, win0_1.index t a * S10000x1.size a ≤ (i a).val
      ∧ (i a).val < win0_1.index t a * S10000x1.size a + S10000x1.size a := by
  show i ∈ ((View.whole main_v0_0).slice (win0_1.rect t)).set ↔ _
  rw [View.set_slice_whole, Rect.mem_set_unit]
  exact Iff.rfl

theorem mem_blk_max (t : Fin cfg0.N) (i : S500000x1.Idx) :
    i ∈ ((cfg0.win 2).blk t).view.set ↔ ∀ a : Fin 2, win0_2.index t a * S10000x1.size a ≤ (i a).val
      ∧ (i a).val < win0_2.index t a * S10000x1.size a + S10000x1.size a := by
  show i ∈ ((View.whole main_v0_1).slice (win0_2.rect t)).set ↔ _
  rw [View.set_slice_whole, Rect.mem_set_unit]
  exact Iff.rfl

/-- Every row of the mean array is in the block of the point `row / 10000`. -/
theorem cover_mean (i : S500000x1.Idx) :
    ∃ t : Fin cfg0.N, (cfg0.win 1).flush t = true ∧ i ∈ ((cfg0.win 1).blk t).view.set := by
  have hi0 : (i 0).val < 500000 := (i 0).isLt
  have hi1 : (i 1).val < 1 := (i 1).isLt
  obtain ⟨t, ht⟩ := onto0 ⟨(i 0).val / 10000, by omega⟩
  have ht' : win0_1.index t (0 : Fin 2) = (i 0).val / 10000 := ht
  obtain ⟨e0, e1, e2, e3, e4, e5⟩ := starts0 t
  refine ⟨t, flush0_1 t, ?_⟩
  rw [mem_blk_mean]
  intro a
  match a with
  | ⟨0, _⟩ =>
    show win0_1.index t (0 : Fin 2) * 10000 ≤ (i 0).val ∧ (i 0).val < win0_1.index t (0 : Fin 2) * 10000 + 10000
    omega
  | ⟨1, _⟩ =>
    show win0_1.index t (1 : Fin 2) * 1 ≤ (i 1).val ∧ (i 1).val < win0_1.index t (1 : Fin 2) * 1 + 1
    omega

theorem cover_max (i : S500000x1.Idx) :
    ∃ t : Fin cfg0.N, (cfg0.win 2).flush t = true ∧ i ∈ ((cfg0.win 2).blk t).view.set := by
  have hi0 : (i 0).val < 500000 := (i 0).isLt
  have hi1 : (i 1).val < 1 := (i 1).isLt
  obtain ⟨t, ht⟩ := onto0 ⟨(i 0).val / 10000, by omega⟩
  have ht' : win0_1.index t (0 : Fin 2) = (i 0).val / 10000 := ht
  obtain ⟨e0, e1, e2, e3, e4, e5⟩ := starts0 t
  refine ⟨t, flush0_2 t, ?_⟩
  rw [mem_blk_max]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 1 ≤ (i 1).val ∧ (i 1).val < win0_2.index t (1 : Fin 2) * 1 + 1
    omega

/-- THE MEAN ARRAY after the pooling region: the row means of the features array as the region found it. -/
theorem mean_array (c : Dev nD) : (dat0 V c).arrAt 1 cfg0.N = meanCol (V c main_arg0) :=
  (dat0 V c).arrAt_eq_of_cover 1 (meanCol (V c main_arg0)) (fun t _ => flushed_mean V c t) cover_mean

/-- THE MAXIMUM ARRAY after the pooling region: the row maxima of the features array as the region found it. -/
theorem max_array (c : Dev nD) : (dat0 V c).arrAt 2 cfg0.N = maxCol (V c main_arg0) :=
  (dat0 V c).arrAt_eq_of_cover 2 (maxCol (V c main_arg0)) (fun t _ => flushed_max V c t) cover_max

/-! ## The gating region's output array -/

/-- What point `t` writes back is block `t` of the gated array of the features and the gate column as the region found them. -/
theorem flushed_gate (c : Dev nD) (t : Fin cfg1.N) :
    (dat1 V c).flushed 2 t
      = ((cfg1.win 2).blk t).view.read (Elt Ideal) (gated (V c main_arg0) (V c main_v42)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S10000x1) zero_off]
  obtain ⟨e0, e1, e2, e3, e4, e5⟩ := starts1 t
  funext j
  show k1_pay1 (F := Ideal) (iblk1 V c 1 t) (iblk1 V c 0 t) j
    = gated (V c main_arg0) (V c main_v42) (((cfg1.win 2).blk t).view.emb j)
  refine gate_block (V c main_arg0) (V c main_v42) (iblk1 V c 0 t) (iblk1 V c 1 t) (win1_2.index t (0 : Fin 2) * 10000)
    (fun p k i h0 h1 => ?_) (fun p r hr => ?_) j (((cfg1.win 2).blk t).view.emb j) ?_ ?_
  · show V c main_arg0 (((cfg1.win 0).blk t).view.emb (ix2 p k)) = V c main_arg0 i
    refine congrArg (V c main_arg0) (funext fun a => Fin.ext ?_)
    match a with
    | ⟨0, _⟩ => show win1_0.index t (0 : Fin 2) * 10000 + 1 * p.val = (i 0).val; omega
    | ⟨1, _⟩ => show win1_0.index t (1 : Fin 2) * 128 + 1 * k.val = (i 1).val; omega
  · show V c main_v42 (((cfg1.win 1).blk t).view.emb (ix2 p (0 : Fin 1))) = V c main_v42 (ix2 r (0 : Fin 1))
    refine congrArg (V c main_v42) (funext fun a => Fin.ext ?_)
    match a with
    | ⟨0, _⟩ => show win1_1.index t (0 : Fin 2) * 10000 + 1 * p.val = r.val; omega
    | ⟨1, _⟩ => show win1_1.index t (1 : Fin 2) * 1 + 1 * 0 = 0; omega
  · show win1_2.index t (0 : Fin 2) * 10000 + 1 * (j 0).val = _
    omega
  · show win1_2.index t (1 : Fin 2) * 128 + 1 * (j 1).val = _
    omega

theorem mem_blk_gate (t : Fin cfg1.N) (i : S500000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v43).slice (win1_2.rect t)).set ↔ _
  rw [View.set_slice_whole, Rect.mem_set_unit]
  exact Iff.rfl

theorem cover_gate (i : S500000x128.Idx) :
    ∃ t : Fin cfg1.N, (cfg1.win 2).flush t = true ∧ i ∈ ((cfg1.win 2).blk t).view.set := by
  have hi0 : (i 0).val < 500000 := (i 0).isLt
  have hi1 : (i 1).val < 128 := (i 1).isLt
  obtain ⟨t, ht⟩ := onto1 ⟨(i 0).val / 10000, by omega⟩
  have ht' : win1_2.index t (0 : Fin 2) = (i 0).val / 10000 := ht
  obtain ⟨e0, e1, e2, e3, e4, e5⟩ := starts1 t
  refine ⟨t, flush1_2 t, ?_⟩
  rw [mem_blk_gate]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- THE OUTPUT ARRAY after the gating region: the gated array of the features and the gate column as the region found them. -/
theorem gate_array (c : Dev nD) : (dat1 V c).arrAt 2 cfg1.N = gated (V c main_arg0) (V c main_v42) :=
  (dat1 V c).arrAt_eq_of_cover 2 (gated (V c main_arg0) (V c main_v42)) (fun t _ => flushed_gate V c t) cover_gate

end Cert.KernelIdeal.Arrays

end
-- ==== Proof.LibGatherVec.lean ====
/-
  THE VECTOR GATHER READ AT AN INDEX.

  A vector gather takes, for each of `E` start indices, one element of an `[N]` operand: `"stablehlo.gather"` with
  offset_dims = [], collapsed_slice_dims = [0], start_index_map = [0], index_vector_dim = 1 and slice sizes [1], over
  start indices of shape `[E, 1]` (what indexing a vector by an integer vector lowers to). Element `e` of the result
  is the operand at `idx[e, 0]` — read SIGNED and CLAMPED into `[0, N − 1]` (`gather_vec_apply`): the same clamp as a
  row gather's through the same start indices (`GatherRows.clampRow`). The extents and the index width are arbitrary.
-/
import Idealize.ShloMosaic.PureOps.ShapeOps
import Idealize.ShloMosaic.Lib.ValueIdx
import proofs.«128960_j83717502534258_2_alg».proof.Proof.LibGatherRows

namespace Idealize.ShloMosaic.GatherVec

open Idealize.ShloMosaic Idealize.ShloMosaic.ValueIdx

variable {α : Type}

/-- The dimension numbers of a gather from an `[N]` operand through `[E, 1]` start indices. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped start index `e`. -/
theorem gather_vec_apply {N E w : Nat} (hN : 0 < N)
    (wf : GatherDims.WF (⟨1, ![N]⟩ : Shape) ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (GatherRows.clampRow N hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The same for ANY dimension numbers between these shapes whose fields are a vector gather's (for a record stated field
    by field, each hypothesis is `rfl`). -/
theorem gather_vec_apply' {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (GatherRows.clampRow N hN (idx (ix2 e (0 : Fin 1))))) := by
  obtain ⟨od, cd, ob, sb, sm, iv, ss, wf⟩ := d
  simp only at h1 h2 h3 h4 h5 h6 h7
  subst h1 h2 h3 h4 h5 h6 h7
  exact gather_vec_apply hN wf x idx e

end Idealize.ShloMosaic.GatherVec
-- ==== Proof.HostStretch.lean ====
/-
  The kernel's host operations between its two regions, with floats as extended reals.

  From the pooling region's two one-column arrays `A` (means) and `M` (maxima), the weight and the three index vectors,
  the host computes the gate column: it reads `A` and `M` as vectors, takes the weight's two channels as 27-vectors,
  gathers all four through the wrapped index words, forms per pair `A[row] * w0[tap] + M[row] * w1[tap]`, adds each pair's
  value into the entry of a zeroed 500001-vector its output word names, drops the last entry, and reads the result as
  a one-column array.

  `gateCol` is that function; at the gating region's entry the gate buffer holds it (`gate_entry`). Only the per-pair
  vector is read at an index here (`pairTerm_eq`): with `A` and `M` the row means and maxima of the features it is the
  specification's `pairValue`. The scatter and what follows it are never opened.
-/
import proofs.«128960_j83717502534258_2_alg».proof.Proof.Gen.KernelIdeal.Frame
import proofs.«128960_j83717502534258_2_alg».proof.Proof.Spec
import proofs.«128960_j83717502534258_2_alg».proof.Proof.LibGatherVec
import proofs.«128960_j83717502534258_2_alg».proof.Proof.LibColumns
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Host

open Cert.KernelIdeal Cert.KernelIdeal.Gen Cert.Spec
open Idealize.ShloMosaic Idealize.ShloMosaic.TcCoe Idealize.SL.Sem Idealize.ShloMosaic.StableHlo
open Idealize.ShloMosaic.ValueIdx Idealize.ShloMosaic.GatherRows

/-! ## The stretch as one function -/

/-- An index vector wrapped against an axis of extent `n` and kept as a one-column array of start indices. -/
def wrapIdx (n : BitVec 32) (a : IVec S13500000 32) : IVec S13500000x1 32 :=
  broadcastInDim S13500000x1 ![0] bcast_S13500000_S13500000x1_0
    (select (cmpi .slt a (broadcastInDim S13500000 ![] bcast_S_S13500000 (constantI S_ 32 0#32)))
      (addi a (broadcastInDim S13500000 ![] bcast_S_S13500000 (constantI S_ 32 n))) a)

/-- Channel `j` of the weight as a 27-vector. -/
def tapVec (w : S27x2x1.Idx → EReal) (off : Fin 3 → Nat) (h : S27x2x1.Slices off S27x1x1) : S27.Idx → EReal :=
  shapeCast S27 (extractStridedSlice S27x1x1 off w h) shapeCasts_S27x1x1_S27

/-- The per-pair vector: `A[row] * w0[tap] + M[row] * w1[tap]`. -/
def pairTerm (A M : S500000x1.Idx → EReal) (w : S27x2x1.Idx → EReal) (kidx iidx : IVec S13500000 32) : S13500000.Idx → EReal :=
  addf (F := Ideal) (φ := .f32)
    (mulf (F := Ideal) (φ := .f32)
      (Host.gather gather_S500000_S13500000x1_S13500000_n_0_n_n_0_1_1 (shapeCast S500000 A shapeCasts_S500000x1_S500000)
        (wrapIdx 500000#32 iidx))
      (Host.gather gather_S27_S13500000x1_S13500000_n_0_n_n_0_1_1 (tapVec w ![0, 0, 0] slices_S27x2x1_S27x1x1_0_0_0)
        (wrapIdx 27#32 kidx)))
    (mulf (F := Ideal) (φ := .f32)
      (Host.gather gather_S500000_S13500000x1_S13500000_n_0_n_n_0_1_1 (shapeCast S500000 M shapeCasts_S500000x1_S500000)
        (wrapIdx 500000#32 iidx))
      (Host.gather gather_S27_S13500000x1_S13500000_n_0_n_n_0_1_1 (tapVec w ![0, 1, 0] slices_S27x2x1_S27x1x1_0_1_0)
        (wrapIdx 27#32 kidx)))

/-- The scatter and what follows it, as a function of the per-pair vector: each pair's value added into the entry its
    output word names of a zeroed 500001-vector, the last entry dropped, the rest as a one-column array. -/
def gateOf (oidx : IVec S13500000 32) (pairs : S13500000.Idx → EReal) : S500000x1.Idx → EReal :=
  shapeCast S500000x1
    (extractStridedSlice S500000 ![0]
      (Host.scatterAdd (F := Ideal) (φ := .f32) scatter_S500001_S13500000x1_S13500000_n_0_0_1
        (broadcastInDim S500001 ![] bcast_S_S500001 (constant (F := Ideal) S_ .f32 0x00000000#32))
        (broadcastInDim S13500000x1 ![0] bcast_S13500000_S13500000x1_0 oidx) pairs)
      slices_S500001_S500000_0)
    shapeCasts_S500000_S500000x1

/-- The gate column the host stretch computes. -/
def gateCol (A M : S500000x1.Idx → EReal) (w : S27x2x1.Idx → EReal) (kidx iidx oidx : IVec S13500000 32) : S500000x1.Idx → EReal :=
  gateOf oidx (pairTerm A M w kidx iidx)

/-! ## What the gating region finds -/

variable (m : (ℓ : Loc nD τ sig) → Buf (Elt Ideal) ℓ) (ρ : Dev nD → PrngReg)

set_option maxHeartbeats 2000000 in
/-- At the gating region's entry the gate buffer holds the stretch's function of what the pooling region left. -/
theorem gate_entry (c : Dev nD) :
    V2 m ρ c main_v42 = gateCol (W1 m ρ c (Proc.devRef .tc main_v0_0)) (W1 m ρ c (Proc.devRef .tc main_v0_1))
      (W1 m ρ c (Proc.devRef .tc main_arg1)) (W1 m ρ c (Proc.devRef .tc main_arg2)) (W1 m ρ c (Proc.devRef .tc main_arg3))
      (W1 m ρ c (Proc.devRef .tc main_arg4)) := by
  show StableHlo.after hostOps1 (W1 m ρ c) (Proc.devRef .tc main_v42) = _
  after_results_simp
  rfl

set_option maxHeartbeats 2000000 in
/-- No host operation writes the features array. -/
theorem feat_entry (c : Dev nD) : V2 m ρ c main_arg0 = W1 m ρ c (Proc.devRef .tc main_arg0) := by
  show StableHlo.after hostOps1 (W1 m ρ c) (Proc.devRef .tc main_arg0) = _
  after_results_simp

/-! ## The per-pair vector at an index -/

/-- A wrapped index column at pair `e` is the pair's word, wrapped. -/
theorem wrapIdx_apply (n : BitVec 32) (a : IVec S13500000 32) (e : Fin 13500000) :
    wrapIdx n a (ix2 e (0 : Fin 1)) = wrapWord n (a (ix1 e)) := by
  unfold wrapIdx
  refine (broadcastInDim_apply _ bcast_S13500000_S13500000x1_0 _ (ix2 e (0 : Fin 1)) (ix1 e) (fun b => match b with
    | ⟨0, _⟩ => by show e.val = if (13500000 : Nat) = 1 then 0 else e.val; rw [if_neg (by decide)])).trans ?_
  rfl

/-- Channel `j` of the weight at tap `k`. -/
theorem tapVec_apply (w : S27x2x1.Idx → EReal) (j : Fin 2) (off : Fin 3 → Nat) (h : S27x2x1.Slices off S27x1x1)
    (hoff : off = ![0, j.val, 0]) (k : Fin 27) : tapVec w off h (ix1 k) = w (ix3 k j (0 : Fin 1)) := by
  subst hoff
  unfold tapVec
  refine (shapeCast_apply _ shapeCasts_S27x1x1_S27 (ix1 k) (ix3 k (0 : Fin 1) (0 : Fin 1)) ?_).trans ?_
  · rw [Shape.rowMajor_val_three, Shape.rowMajor_val_one]
    show (k.val * 1 + 0) * 1 + 0 = k.val
    omega
  · exact extractStridedSlice_apply _ w h _ (ix3 k j (0 : Fin 1)) (fun a => match a with
      | ⟨0, _⟩ => by show k.val = 0 + k.val; omega
      | ⟨1, _⟩ => by show j.val = j.val + 0; omega
      | ⟨2, _⟩ => by show 0 = 0 + 0; rfl)

/-- A pooled column gathered through the wrapped input-voxel words, at pair `e`: the column at the pair's row. -/
theorem rowGather_apply (A : S500000x1.Idx → EReal) (iidx : IVec S13500000 32) (e : Fin 13500000) :
    Host.gather gather_S500000_S13500000x1_S13500000_n_0_n_n_0_1_1 (shapeCast S500000 A shapeCasts_S500000x1_S500000)
        (wrapIdx 500000#32 iidx) (ix1 e)
      = A (ix2 (pairRow iidx e) (0 : Fin 1)) := by
  refine (GatherVec.gather_vec_apply' (N := 500000) (E := 13500000) (w := 32) (by decide)
    gather_S500000_S13500000x1_S13500000_n_0_n_n_0_1_1 rfl rfl rfl rfl rfl rfl rfl _ _ e).trans ?_
  rw [wrapIdx_apply]
  exact shapeCast_a1_a_apply A shapeCasts_S500000x1_S500000 _

/-- A weight channel gathered through the wrapped tap words, at pair `e`: the channel at the pair's tap. -/
theorem tapGather_apply (w : S27x2x1.Idx → EReal) (j : Fin 2) (off : Fin 3 → Nat) (h : S27x2x1.Slices off S27x1x1)
    (hoff : off = ![0, j.val, 0]) (kidx : IVec S13500000 32) (e : Fin 13500000) :
    Host.gather gather_S27_S13500000x1_S13500000_n_0_n_n_0_1_1 (tapVec w off h) (wrapIdx 27#32 kidx) (ix1 e)
      = w (ix3 (pairTap kidx e) j (0 : Fin 1)) := by
  refine (GatherVec.gather_vec_apply' (N := 27) (E := 13500000) (w := 32) (by decide)
    gather_S27_S13500000x1_S13500000_n_0_n_n_0_1_1 rfl rfl rfl rfl rfl rfl rfl _ _ e).trans ?_
  rw [wrapIdx_apply]
  exact tapVec_apply w j off h hoff _

/-- The mean channel's weights gathered at pair `e`. -/
theorem tapGather0 (w : S27x2x1.Idx → EReal) (kidx : IVec S13500000 32) (e : Fin 13500000) :
    Host.gather gather_S27_S13500000x1_S13500000_n_0_n_n_0_1_1 (tapVec w ![0, 0, 0] slices_S27x2x1_S27x1x1_0_0_0)
        (wrapIdx 27#32 kidx) (ix1 e)
      = w (ix3 (pairTap kidx e) (0 : Fin 2) (0 : Fin 1)) :=
  tapGather_apply w (0 : Fin 2) _ _ rfl kidx e

/-- The maximum channel's weights gathered at pair `e`. -/
theorem tapGather1 (w : S27x2x1.Idx → EReal) (kidx : IVec S13500000 32) (e : Fin 13500000) :
    Host.gather gather_S27_S13500000x1_S13500000_n_0_n_n_0_1_1 (tapVec w ![0, 1, 0] slices_S27x2x1_S27x1x1_0_1_0)
        (wrapIdx 27#32 kidx) (ix1 e)
      = w (ix3 (pairTap kidx e) (1 : Fin 2) (0 : Fin 1)) :=
  tapGather_apply w (1 : Fin 2) _ _ rfl kidx e

/-- With the row means and the row maxima of the features as its two columns, the per-pair vector is the
    specification's. -/
theorem pairTerm_eq (X : S500000x128.Idx → EReal) (w : S27x2x1.Idx → EReal) (kidx iidx : IVec S13500000 32) :
    pairTerm (meanCol X) (maxCol X) w kidx iidx = pairValue X w kidx iidx := by
  funext p
  obtain ⟨e, rfl⟩ : ∃ e : Fin 13500000, p = ix1 e := ⟨p 0, eq_ix1 p⟩
  unfold pairTerm
  show Host.gather gather_S500000_S13500000x1_S13500000_n_0_n_n_0_1_1
        (shapeCast S500000 (meanCol X) shapeCasts_S500000x1_S500000) (wrapIdx 500000#32 iidx) (ix1 e)
      * Host.gather gather_S27_S13500000x1_S13500000_n_0_n_n_0_1_1 (tapVec w ![0, 0, 0] slices_S27x2x1_S27x1x1_0_0_0)
        (wrapIdx 27#32 kidx) (ix1 e)
    + Host.gather gather_S500000_S13500000x1_S13500000_n_0_n_n_0_1_1
        (shapeCast S500000 (maxCol X) shapeCasts_S500000x1_S500000) (wrapIdx 500000#32 iidx) (ix1 e)
      * Host.gather gather_S27_S13500000x1_S13500000_n_0_n_n_0_1_1 (tapVec w ![0, 1, 0] slices_S27x2x1_S27x1x1_0_1_0)
        (wrapIdx 27#32 kidx) (ix1 e) = _
  rw [rowGather_apply, rowGather_apply, tapGather0, tapGather1]
  rfl

end Cert.KernelIdeal.Host

end
-- ==== Proof.KernelValue.lean ====
/-
  The idealized kernel's result as one function of its arguments.

  The pooling region leaves the row means and row maxima of the features in its two output arrays and touches nothing
  else; the host stretch turns those two columns, the weight and the index vectors into the gate column and does not
  write the features; the gating region leaves the features gated by that column in the result array. Composed: the
  result is the features, every channel of row `r` times the logistic function, at `r`, of the sliced scatter of the
  specification's per-pair values.
-/
import proofs.«128960_j83717502534258_2_alg».proof.Proof.KernelRun
import proofs.«128960_j83717502534258_2_alg».proof.Proof.Arrays
import proofs.«128960_j83717502534258_2_alg».proof.Proof.HostStretch

noncomputable section

namespace Cert.KernelIdeal.Result

open Cert.KernelIdeal Cert.KernelIdeal.Gen Cert.Spec
open Idealize.ShloMosaic Idealize.ShloMosaic.TcCoe Idealize.SL.Sem
open Idealize.ShloMosaic.Pipeline (Dat)

/-- The kernel's result as a function of its five arguments. -/
def result (x0 : S500000x128.Idx → EReal) (x1 : S27x2x1.Idx → EReal) (x2 x3 x4 : IVec S13500000 32) : S500000x128.Idx → EReal :=
  gated x0 (Host.gateOf x4 (pairValue x0 x1 x2 x3))

variable (m : (ℓ : Loc nD τ sig) → Buf (Elt Ideal) ℓ) (ρ : Dev nD → PrngReg)

/-! ## After the pooling region -/

/-- The features are as launched: the region stages them through an input window and never writes them back. -/
theorem W1_feat (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The mean array holds the row means of the launched features. -/
theorem W1_mean (c : Dev nD) : W1 m ρ c (Proc.devRef .tc main_v0_0) = meanCol (m ((c : Thread nD τ).loc main_arg0)) :=
  (W1_arr m ρ c 1).trans (Arrays.mean_array (V0 m ρ) c)

/-- The maximum array holds the row maxima of the launched features. -/
theorem W1_max (c : Dev nD) : W1 m ρ c (Proc.devRef .tc main_v0_1) = maxCol (m ((c : Thread nD τ).loc main_arg0)) :=
  (W1_arr m ρ c 2).trans (Arrays.max_array (V0 m ρ) c)

/-- The other arguments are no array of the region: as launched. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-! ## What the gating region finds, and leaves -/

/-- The features at the gating region's entry are the launched ones. -/
theorem V2_feat (c : Dev nD) : V2 m ρ c main_arg0 = m ((c : Thread nD τ).loc main_arg0) :=
  (Host.feat_entry m ρ c).trans (W1_feat m ρ c)

/-- The gate column at the gating region's entry: the sliced scatter of the specification's per-pair values of the
    launched arguments, as a one-column array. -/
theorem V2_gate (c : Dev nD) :
    V2 m ρ c main_v42 = Host.gateOf (m ((c : Thread nD τ).loc main_arg4))
      (pairValue (m ((c : Thread nD τ).loc main_arg0)) (m ((c : Thread nD τ).loc main_arg1))
        (m ((c : Thread nD τ).loc main_arg2)) (m ((c : Thread nD τ).loc main_arg3))) := by
  rw [Host.gate_entry, W1_mean, W1_max, W1_arg1, W1_arg2, W1_arg3, W1_arg4]
  unfold Host.gateCol
  rw [Host.pairTerm_eq]

/-- THE RESULT ARRAY at the last boundary: `result` of the launched arguments. -/
theorem W3_result (c : Dev nD) :
    W3 m ρ c (Proc.devRef .tc main_v43) = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m ρ c 2).trans ?_
  refine (Arrays.gate_array (V2 m ρ) c).trans ?_
  rw [V2_feat, V2_gate]
  rfl

/-- THE KERNEL'S RUN: every weakly fair execution terminates, nothing faulting, with the result array at `result` of the
    launched arguments and the arguments unchanged. -/
theorem run : θ_run defs (onTc (τ := τ) (main (F := Ideal))) ⟨m, fun _ => 0, ρ⟩ (fun r => ∀ c : Dev nD,
      r.2.mem ((c.tc : Thread nD τ).loc main_v43) = result (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W3_result m ρ c), (h c).2⟩) (Run.run_named m ρ)

end Cert.KernelIdeal.Result

end
-- ==== Proof.LibGatherSlab.lean ====
/-
  A GATHER OF ROWS OF A RANK-3 ARRAY WITH A UNIT LAST AXIS, READ AT AN INDEX.

  Indexing an `[N, C, 1]` array by an integer vector along its leading axis and by the constant 0 along its last
  (`x[idx, :, 0]`) lowers to `"stablehlo.gather"` with offset_dims = [1], collapsed_slice_dims = [0, 2],
  start_index_map = [0, 2], index_vector_dim = 1 and slice sizes [1, C, 1], over start indices of shape `[E, 2]`: each
  start index is a pair (row, last-axis position). Element `(e, q)` of the result is the operand at row `idx[e, 0]` —
  read SIGNED and CLAMPED into `[0, N − 1]`, the same clamp as a row gather's —, middle coordinate `q`, last
  coordinate 0: the last axis has extent 1 and slice size 1, so whatever `idx[e, 1]` holds is clamped into `[0, 0]`.
  The extents and the index width are arbitrary.

  Road: on these dimension numbers the operand coordinate on axis 0 is the clamped first component alone, on axis 1
  the result's column alone (the start index map does not name that axis), on axis 2 the second component clamped
  to 0.
-/
import Idealize.ShloMosaic.PureOps.ShapeOps
import Idealize.ShloMosaic.Lib.ValueIdx
import proofs.«128960_j83717502534258_2_alg».proof.Proof.LibGatherRows

namespace Idealize.ShloMosaic.GatherSlab

open Idealize.ShloMosaic Idealize.ShloMosaic.ValueIdx

variable {α : Type}

/-- The dimension numbers of that gather from an `[N, C, 1]` operand through `[E, 2]` start indices. -/
abbrev slabDims (N E C : Nat)
    (wf : GatherDims.WF (⟨3, ![N, C, 1]⟩ : Shape) ⟨2, ![E, 2]⟩ ⟨2, ![E, C]⟩ [1] [0, 2] [] [0, 2] [] 1 ![1, C, 1]) :
    GatherDims ⟨3, ![N, C, 1]⟩ ⟨2, ![E, 2]⟩ ⟨2, ![E, C]⟩ where
  offsetDims := [1]
  collapsedSliceDims := [0, 2]
  operandBatchingDims := []
  startIndicesBatchingDims := []
  startIndexMap := [0, 2]
  indexVectorDim := 1
  sliceSizes := ![1, C, 1]
  wf := wf

/-- THE GATHER READ AT `(e, q)`: the operand at the clamped row of start index `e`, middle coordinate `q`, last
    coordinate 0. -/
theorem gather_slab_apply {N E C w : Nat} (hN : 0 < N)
    (wf : GatherDims.WF (⟨3, ![N, C, 1]⟩ : Shape) ⟨2, ![E, 2]⟩ ⟨2, ![E, C]⟩ [1] [0, 2] [] [0, 2] [] 1 ![1, C, 1])
    (x : (⟨3, ![N, C, 1]⟩ : Shape).Idx → α) (idx : IVec ⟨2, ![E, 2]⟩ w) (e : Fin E) (q : Fin C) :
    Host.gather (slabDims N E C wf) x idx (ix2 e q)
      = x (ix3 (GatherRows.clampRow N hN (idx (ix2 e (0 : Fin 2)))) q (0 : Fin 1)) := by
  unfold Host.gather
  congr 1
  funext a
  refine Fin.ext ?_
  have hc0 : (0 : Fin 3) ∈ ([0, 2] : List (Fin 3)) := by decide
  have hc2 : (2 : Fin 3) ∈ ([0, 2] : List (Fin 3)) := by decide
  have hn1 : ¬ (1 : Fin 3) ∈ ([0, 2] : List (Fin 3)) := by decide
  match a with
  | ⟨0, _⟩ =>
    show (slabDims N E C wf).start (ix2 e q) idx 0 + (slabDims N E C wf).batchCoord (ix2 e q) 0
      + (slabDims N E C wf).offCoord (ix2 e q) 0 = _
    rw [GatherDims.batchCoord_eq_zero _ _ _ List.not_mem_nil,
      GatherDims.offCoord_eq_zero _ _ _ (fun h => ((GatherDims.mem_sKept _ _).mp h).1 hc0)]
    simp only [Nat.add_zero]
    unfold GatherDims.start
    rw [dif_pos (show (0 : Fin 3) ∈ (slabDims N E C wf).startIndexMap from hc0)]
    have hsi : (slabDims N E C wf).siIdx (ix2 e q) ⟨List.idxOf (0 : Fin 3) (slabDims N E C wf).startIndexMap,
        List.idxOf_lt_length_iff.2 hc0⟩ = ix2 e (0 : Fin 2) := by
      funext b; refine Fin.ext ?_
      match b with
      | ⟨0, _⟩ => rfl
      | ⟨1, _⟩ => rfl
    rw [hsi]
    rfl
  | ⟨1, _⟩ =>
    show (slabDims N E C wf).start (ix2 e q) idx 1 + (slabDims N E C wf).batchCoord (ix2 e q) 1
      + (slabDims N E C wf).offCoord (ix2 e q) 1 = q.val
    rw [GatherDims.batchCoord_eq_zero _ _ _ List.not_mem_nil]
    have hs : (slabDims N E C wf).start (ix2 e q) idx 1 = 0 := by
      unfold GatherDims.start
      rw [dif_neg (show ¬ (1 : Fin 3) ∈ (slabDims N E C wf).startIndexMap from hn1)]
    have ho : (slabDims N E C wf).offCoord (ix2 e q) 1 = q.val := by
      unfold GatherDims.offCoord
      have h : (1 : Fin 3) ∈ (slabDims N E C wf).sKept :=
        (GatherDims.mem_sKept _ _).mpr ⟨hn1, List.not_mem_nil⟩
      rw [dif_pos h]
      rfl
    rw [hs, ho]; omega
  | ⟨2, _⟩ =>
    show (slabDims N E C wf).start (ix2 e q) idx 2 + (slabDims N E C wf).batchCoord (ix2 e q) 2
      + (slabDims N E C wf).offCoord (ix2 e q) 2 = 0
    rw [GatherDims.batchCoord_eq_zero _ _ _ List.not_mem_nil,
      GatherDims.offCoord_eq_zero _ _ _ (fun h => ((GatherDims.mem_sKept _ _).mp h).1 hc2)]
    have hs := (slabDims N E C wf).start_le (ix2 e q) idx 2
    have h1 : (⟨3, ![N, C, 1]⟩ : Shape).size 2 - (slabDims N E C wf).sliceSizes 2 = 0 := rfl
    omega

/-- The same for ANY dimension numbers between these shapes whose fields are this gather's (for a record stated field
    by field, each hypothesis is `rfl`). -/
theorem gather_slab_apply' {N E C w : Nat} (hN : 0 < N)
    (d : GatherDims (⟨3, ![N, C, 1]⟩ : Shape) ⟨2, ![E, 2]⟩ ⟨2, ![E, C]⟩)
    (h1 : d.offsetDims = [1]) (h2 : d.collapsedSliceDims = [0, 2]) (h3 : d.operandBatchingDims = [])
    (h4 : d.startIndicesBatchingDims = []) (h5 : d.startIndexMap = [0, 2]) (h6 : d.indexVectorDim = 1)
    (h7 : d.sliceSizes = ![1, C, 1])
    (x : (⟨3, ![N, C, 1]⟩ : Shape).Idx → α) (idx : IVec ⟨2, ![E, 2]⟩ w) (e : Fin E) (q : Fin C) :
    Host.gather d x idx (ix2 e q)
      = x (ix3 (GatherRows.clampRow N hN (idx (ix2 e (0 : Fin 2)))) q (0 : Fin 1)) := by
  obtain ⟨od, cd, ob, sb, sm, iv, ss, wf⟩ := d
  simp only at h1 h2 h3 h4 h5 h6 h7
  subst h1 h2 h3 h4 h5 h6 h7
  exact gather_slab_apply hN wf x idx e q

end Idealize.ShloMosaic.GatherSlab
-- ==== Proof.LibRowReads.lean ====
/-
  Two reads at an index, with floats as extended reals where a float operation is involved, stated for any extents
  with every index written by coordinates:

  * the host's one-operand `stablehlo.reduce` with a maximum body along the rows of a rank-2 array, `[A, B] → [A]`,
    read at `p`: the fold of `max` over `k` of the entry at `(p, k)`, from the initial value;
  * the concatenation along axis 1 of two one-column arrays, `[A, 1] ++ [A, 1] → [A, 2]` (what stacking two vectors as
    the columns of a matrix lowers to), read at `(r, 0)` and at `(r, 1)`: the first array, respectively the second,
    at `(r, 0)`. The entries may be of any type: floats, or the words of an index array.
-/
import Idealize.ShloMosaic.PureOps.Ideal
import Idealize.ShloMosaic.PureOps.Reduce
import Idealize.ShloMosaic.Lib.ValueIdx
import Idealize.ShloMosaic.Lib.Pipeline.Value
import proofs.«128960_j83717502534258_2_alg».proof.Proof.LibRowDots

noncomputable section

namespace Idealize.ShloMosaic.RowReads

open Idealize.ShloMosaic Idealize.ShloMosaic.ValueIdx

/-- The host's maximum-reduce along the rows of a rank-2 array, read at `p`: the fold of `max` over row `p`, from the
    initial value. -/
theorem hostReduceMax_rows_apply {A B : Nat} {φ : FTy} {u : Shape} (x : FVec Ideal (⟨2, ![A, B]⟩ : Shape) φ)
    (init : u.Idx → Ideal φ) (h' : (⟨2, ![A, B]⟩ : Shape).ReducesTo [1] (⟨1, ![A]⟩ : Shape))
    (h : (⟨2, ![A, B]⟩ : Shape).Reduces [1] (⟨1, ![A]⟩ : Shape)) (hu : 0 < u.numel) (p : Fin A) :
    Host.reduce FloatOps.maximumf x init h' hu (ix1 p)
      = (Finset.univ : Finset (Fin B)).fold max (init (Shape.Idx.first hu)) (fun k => x (ix2 p k)) := by
  rw [Host.reduce_eq_fold_single FloatOps.maximumf x init h' h hu]
  exact congrArg (fun f => Finset.fold max (init (Shape.Idx.first hu)) f (Finset.univ : Finset (Fin B)))
    (funext fun k => congrArg x (RowDots.lift_row h p k))

variable {α : Type}

/-- Two one-column arrays side by side, read in the first column. -/
theorem concat_cols_left {A : Nat} (x₁ x₂ : (⟨2, ![A, 1]⟩ : Shape).Idx → α)
    (h : Shape.Concatenates [(⟨2, ![A, 1]⟩ : Shape), ⟨2, ![A, 1]⟩] ⟨2, ![A, 2]⟩ 1) (r : Fin A) :
    concatenate (⟨2, ![A, 2]⟩ : Shape) 1 [⟨⟨2, ![A, 1]⟩, x₁⟩, ⟨⟨2, ![A, 1]⟩, x₂⟩] h (ix2 r (0 : Fin 2))
      = x₁ (ix2 r (0 : Fin 1)) :=
  concatenate_pair_apply_left (1 : Fin 2) x₁ x₂ h (ix2 r (0 : Fin 2)) rfl (ix2 r (0 : Fin 1))
    (fun b => match b with | ⟨0, _⟩ => rfl | ⟨1, _⟩ => rfl)

/-- Two one-column arrays side by side, read in the second column. -/
theorem concat_cols_right {A : Nat} (x₁ x₂ : (⟨2, ![A, 1]⟩ : Shape).Idx → α)
    (h : Shape.Concatenates [(⟨2, ![A, 1]⟩ : Shape), ⟨2, ![A, 1]⟩] ⟨2, ![A, 2]⟩ 1) (r : Fin A) :
    concatenate (⟨2, ![A, 2]⟩ : Shape) 1 [⟨⟨2, ![A, 1]⟩, x₁⟩, ⟨⟨2, ![A, 1]⟩, x₂⟩] h (ix2 r (1 : Fin 2))
      = x₂ (ix2 r (0 : Fin 1)) :=
  concatenate_pair_apply_right (1 : Fin 2) x₁ x₂ h (ix2 r (1 : Fin 2)) rfl rfl (ix2 r (0 : Fin 1))
    (fun b hb => match b with | ⟨0, _⟩ => rfl | ⟨1, _⟩ => absurd rfl hb)
    (by show 0 + 1 = 1; rfl)

end Idealize.ShloMosaic.RowReads

end
-- ==== Proof.RefValue.lean ====
/-
  The reference's result read at an index, with floats as extended reals.

  The reference stacks the row means and row maxima of the features as the two columns of a `[500000, 2]` array,
  gathers one row of it per pair through the wrapped input-voxel words, gathers one row `weight[tap, :, 0]` per pair
  through the wrapped tap words, multiplies the two and sums over the two columns, from zero: per pair
  `0 + (mean * w0 + max * w1)`. That is the specification's `pairValue` (`pairs_eq`); the sum starts from zero, and
  zero added on the left changes nothing on the extended reals.

  It then adds each pair's value into the entry of a zeroed 500001-vector its output word names and drops the last
  entry (`convOf`, never opened), and multiplies every channel of row `r` by `1 / (1 + exp (-conv r))`, which is the
  logistic function, including at the two infinities (`result_eq`).
-/
import proofs.«128960_j83717502534258_2_alg».proof.Proof.RefRead
import proofs.«128960_j83717502534258_2_alg».proof.Proof.Spec
import proofs.«128960_j83717502534258_2_alg».proof.Proof.LibGatherRows
import proofs.«128960_j83717502534258_2_alg».proof.Proof.LibGatherSlab
import proofs.«128960_j83717502534258_2_alg».proof.Proof.LibRowReads
import Idealize.ShloMosaic.Lib.IdealHost
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx Idealize.ShloMosaic.GatherRows

/-! ## The two pooled columns -/

/-- Column 0 of the stacked array at row `r` is the mean of the features' row `r`. -/
theorem stacked_mean (x0 : (⟨S500000x128, .f32⟩ : BufTy).Contents (Elt Ideal)) (r : Fin 500000) :
    val_main_v6 (F := Ideal) x0 (ix2 r (0 : Fin 2)) = rowMean x0 r := by
  unfold val_main_v6
  refine (RowReads.concat_cols_left _ _ concatenates_S500000x1_S500000x1_S500000x2_d1 r).trans ?_
  have e4 : idx_main_v4 (ix2 r (0 : Fin 1)) = ix1 r := funext fun a => Fin.ext (by match a with | ⟨0, _⟩ => rfl)
  rw [val_main_v4_apply, e4, val_main_v2_apply, val_main_v0_apply, val_main_v1_apply, val_main_cst_0_apply,
    val_main_cst_apply]
  unfold rowMean
  simp only [Ideal.hostDivf_def, Ideal.ofBits_def, Ideal.ofBits_zero_f32, zero_add]
  refine congrArg (Ideal.div · (Ideal.ofBits .f32 0x43000000#32)) (Finset.sum_congr rfl fun k _ => ?_)
  exact congrArg x0 (funext fun a => Fin.ext (by match a with | ⟨0, _⟩ => rfl | ⟨1, _⟩ => rfl))

/-- Column 1 of the stacked array at row `r` is the maximum of the features' row `r`. -/
theorem stacked_max (x0 : (⟨S500000x128, .f32⟩ : BufTy).Contents (Elt Ideal)) (r : Fin 500000) :
    val_main_v6 (F := Ideal) x0 (ix2 r (1 : Fin 2)) = rowMax x0 r := by
  unfold val_main_v6
  refine (RowReads.concat_cols_right _ _ concatenates_S500000x1_S500000x1_S500000x2_d1 r).trans ?_
  have e5 : idx_main_v5 (ix2 r (0 : Fin 1)) = ix1 r := funext fun a => Fin.ext (by match a with | ⟨0, _⟩ => rfl)
  rw [val_main_v5_apply, e5]
  unfold val_main_v3 rowMax
  refine (RowReads.hostReduceMax_rows_apply (A := 500000) (B := 128) (φ := .f32) x0 (val_main_cst_1 (F := Ideal))
    reducesTo_S500000x128_S500000_d1 (by decide) h_S_ r).trans ?_
  rfl

/-! ## The two gathers at a pair -/

/-- The input-voxel start index of pair `e` is its word, wrapped. -/
theorem rowStart_apply (x3 : (⟨S13500000, .i32⟩ : BufTy).Contents (Elt Ideal)) (e : Fin 13500000) :
    val_main_v12 (F := Ideal) x3 (ix2 e (0 : Fin 1)) = wrapWord 500000#32 (x3 (ix1 e)) := by
  have e12 : idx_main_v12 (ix2 e (0 : Fin 1)) = ix1 e := funext fun a => Fin.ext (by match a with | ⟨0, _⟩ => rfl)
  rw [val_main_v12_apply, e12]
  rfl

/-- The stacked array gathered through those start indices, at pair `e` and column `q`: the stacked array at the
    pair's row. -/
theorem rowGather_apply (x0 : (⟨S500000x128, .f32⟩ : BufTy).Contents (Elt Ideal))
    (x3 : (⟨S13500000, .i32⟩ : BufTy).Contents (Elt Ideal)) (e : Fin 13500000) (q : Fin 2) :
    val_main_v13 (F := Ideal) x0 x3 (ix2 e q) = val_main_v6 (F := Ideal) x0 (ix2 (pairRow x3 e) q) := by
  unfold val_main_v13
  refine (gather_rows_apply' (N := 500000) (E := 13500000) (C := 2) (w := 32) (by decide)
    gather_S500000x2_S13500000x1_S13500000x2_1_0_n_n_0_1_12 rfl rfl rfl rfl rfl rfl rfl _ _ e q).trans ?_
  rw [rowStart_apply]
  rfl

/-- The tap start index of pair `e`: its word, wrapped, in the first component. -/
theorem tapStart_apply (x2 : (⟨S13500000, .i32⟩ : BufTy).Contents (Elt Ideal)) (e : Fin 13500000) :
    val_main_v23 (F := Ideal) x2 (ix2 e (0 : Fin 2)) = wrapWord 27#32 (x2 (ix1 e)) := by
  unfold val_main_v23
  refine (RowReads.concat_cols_left _ _ concatenates_S13500000x1_S13500000x1_S13500000x2_d1 e).trans ?_
  have e21 : idx_main_v21 (ix2 e (0 : Fin 1)) = ix1 e := funext fun a => Fin.ext (by match a with | ⟨0, _⟩ => rfl)
  rw [val_main_v21_apply, e21]
  rfl

/-- The weight gathered through those start indices, at pair `e` and channel `q`: the weight at the pair's tap. -/
theorem tapGather_apply (x1 : (⟨S27x2x1, .f32⟩ : BufTy).Contents (Elt Ideal))
    (x2 : (⟨S13500000, .i32⟩ : BufTy).Contents (Elt Ideal)) (e : Fin 13500000) (q : Fin 2) :
    val_main_v24 (F := Ideal) x1 x2 (ix2 e q) = x1 (ix3 (pairTap x2 e) q (0 : Fin 1)) := by
  unfold val_main_v24
  refine (GatherSlab.gather_slab_apply' (N := 27) (E := 13500000) (C := 2) (w := 32) (by decide)
    gather_S27x2x1_S13500000x2_S13500000x2_1_02_n_n_02_1_121 rfl rfl rfl rfl rfl rfl rfl _ _ e q).trans ?_
  rw [tapStart_apply]
  rfl

/-! ## The per-pair vector -/

/-- The reference's per-pair vector is the specification's. -/
theorem pairs_eq (x0 : (⟨S500000x128, .f32⟩ : BufTy).Contents (Elt Ideal)) (x1 : (⟨S27x2x1, .f32⟩ : BufTy).Contents (Elt Ideal))
    (x2 x3 : (⟨S13500000, .i32⟩ : BufTy).Contents (Elt Ideal)) :
    val_main_v26 (F := Ideal) x0 x1 x2 x3 = pairValue x0 x1 x2 x3 := by
  funext p
  obtain ⟨e, rfl⟩ : ∃ e : Fin 13500000, p = ix1 e := ⟨p 0, eq_ix1 p⟩
  have i0 : idx_main_v26 (ix1 e) (0 : Fin 2) = ix2 e (0 : Fin 2) :=
    funext fun a => Fin.ext (by match a with | ⟨0, _⟩ => rfl | ⟨1, _⟩ => rfl)
  have i1 : idx_main_v26 (ix1 e) (1 : Fin 2) = ix2 e (1 : Fin 2) :=
    funext fun a => Fin.ext (by match a with | ⟨0, _⟩ => rfl | ⟨1, _⟩ => rfl)
  rw [val_main_v26_apply, Fin.sum_univ_two, i0, i1, val_main_v25_apply, val_main_v25_apply, val_main_cst_6_apply,
    rowGather_apply, rowGather_apply, tapGather_apply, tapGather_apply, stacked_mean, stacked_max]
  simp only [Ideal.mulf_def, Ideal.ofBits_def, Ideal.ofBits_zero_f32, zero_add]
  rfl

/-! ## The result -/

/-- Each pair's value added into the entry of a zeroed 500001-vector its output word names, the last entry dropped. -/
def convOf (x4 : (⟨S13500000, .i32⟩ : BufTy).Contents (Elt Ideal)) (pairs : S13500000.Idx → EReal) : S500000.Idx → EReal :=
  extractStridedSlice S500000 ![0]
    (Host.scatterAdd (F := Ideal) (φ := .f32) scatter_S500001_S13500000x1_S13500000_n_0_0_1
      (broadcastInDim S500001 ![] bcast_S_S500001 (constant (F := Ideal) S_ .f32 0x00000000#32))
      (broadcastInDim S13500000x1 ![0] bcast_S13500000_S13500000x1_0 x4) pairs)
    slices_S500001_S500000_0

/-- THE REFERENCE'S RESULT: every channel of row `r` times the logistic function of the convolution's value at `r`. -/
theorem result_eq (x0 : (⟨S500000x128, .f32⟩ : BufTy).Contents (Elt Ideal)) (x1 : (⟨S27x2x1, .f32⟩ : BufTy).Contents (Elt Ideal))
    (x2 x3 x4 : (⟨S13500000, .i32⟩ : BufTy).Contents (Elt Ideal)) :
    val_main_v39 (F := Ideal) x0 x1 x2 x3 x4
      = fun i => x0 i * Ideal.logistic (convOf x4 (pairValue x0 x1 x2 x3) (ix1 (⟨(i 0).val, (i 0).isLt⟩ : Fin 500000))) := by
  funext i
  have e30 : val_main_v30 (F := Ideal) x0 x1 x2 x3 x4 = convOf x4 (pairValue x0 x1 x2 x3) := by
    rw [← pairs_eq]; rfl
  have ei : idx_main_v37 (idx_main_v38 i) = ix1 (⟨(i 0).val, (i 0).isLt⟩ : Fin 500000) :=
    funext fun a => Fin.ext (by match a with | ⟨0, _⟩ => rfl)
  rw [val_main_v39_apply, val_main_v38_apply, val_main_v37_apply, ei, val_main_v36_apply, val_main_v35_apply,
    val_main_cst_9_apply, val_main_v34_apply, val_main_v33_apply, val_main_cst_8_apply, val_main_v32_apply,
    val_main_v31_apply, e30]
  simp only [Ideal.mulf_def, Ideal.hostDivf_def, Ideal.addf_def, Ideal.hostUnary_exp_def, Ideal.hostNegf_def,
    Ideal.negf_def, Ideal.ofBits_def, Ideal.ofBits_one_f32]
  rfl

end Cert.ReferenceIdeal.RefValue

end
-- ==== Proof.Bridge.lean ====
/-
  The two results are one function of the arguments.

  Both programs end at "every channel of row `r` of the features times the logistic function of the convolution's value
  at `r`", and both compute that value as the same sliced scatter of the same per-pair values (the specification's
  `pairValue`). The kernel keeps the value as a one-column array, which read at `(r, 0)` is the vector at `r`; the
  reference reads the vector at `r` directly. The scatter itself is never opened.
-/
import proofs.«128960_j83717502534258_2_alg».proof.Proof.KernelValue
import proofs.«128960_j83717502534258_2_alg».proof.Proof.RefValue
import proofs.«128960_j83717502534258_2_alg».proof.Proof.LibColumns

noncomputable section

namespace Cert.Bridge

open Cert.Spec Idealize.ShloMosaic Idealize.ShloMosaic.ValueIdx

/-- The kernel's gate column at `(r, 0)` is the reference's convolution vector at `r`. -/
theorem gate_conv (x4 : SP.Idx → BitVec 32) (P : SP.Idx → EReal) (r : Fin 500000) :
    Cert.KernelIdeal.Host.gateOf x4 P (ix2 r (0 : Fin 1)) = Cert.ReferenceIdeal.RefValue.convOf x4 P (ix1 r) := by
  unfold Cert.KernelIdeal.Host.gateOf
  refine (shapeCast_a_a1_apply _ _ r (0 : Fin 1)).trans ?_
  rfl

/-- THE REFERENCE'S RESULT IS THE KERNEL'S, as functions of the five arguments. -/
theorem result_eq (x0 : SX.Idx → EReal) (x1 : SW.Idx → EReal) (x2 x3 x4 : SP.Idx → BitVec 32) :
    Cert.ReferenceIdeal.ReadP.val_main_v39 (F := Ideal) x0 x1 x2 x3 x4 = Cert.KernelIdeal.Result.result x0 x1 x2 x3 x4 := by
  rw [Cert.ReferenceIdeal.RefValue.result_eq]
  funext i
  unfold Cert.KernelIdeal.Result.result gated
  rw [gate_conv]

end Cert.Bridge

end
-- ==== Proof.lean ====
/-
  The certificate that the pooling-and-gating kernel computes what its reference computes, on the extended reals.

  Both programs take 500000 voxels of 128 channels, pool each voxel's channels to a mean and a maximum, run a 27-tap
  sparse convolution over those two pooled channels, given as 13500000 (tap, input voxel, output voxel) index triples,
  and multiply every channel of a voxel by the logistic function of the convolution's value there.

  The kernel does the pooling and the gating in two pipelined regions over 50 blocks of 10000 rows and the convolution
  on the host in between, with the two pooled channels and the two weight channels as four separate vectors. The
  reference stacks the pooled channels as the columns of one array, gathers rows of it and rows of the weight, and sums
  the two products from zero. Per pair both are `mean * w0 + max * w1` — the reference's with a zero added on the left —,
  both feed the same scatter-add, and `1 / (1 + exp (-x))` is the logistic function at every extended real. Nothing in
  the argument uses that the inputs are finite.

  The frames of the two kernel programs are the generated ones; the reference's frame is its run with the result
  dropped; nothing was rewritten between the kernel and its idealization, so that claim is `True`.
-/
import proofs.«128960_j83717502534258_2_alg».proof.Defs
import proofs.«128960_j83717502534258_2_alg».proof.Proof.Gen.Kernel
import proofs.«128960_j83717502534258_2_alg».proof.Proof.Gen.Kernel.Skeleton
import proofs.«128960_j83717502534258_2_alg».proof.Proof.Gen.Kernel.Launch
import proofs.«128960_j83717502534258_2_alg».proof.Proof.Gen.Kernel.Points
import proofs.«128960_j83717502534258_2_alg».proof.Proof.Gen.Kernel.Frame
import proofs.«128960_j83717502534258_2_alg».proof.Proof.Gen.KernelIdeal
import proofs.«128960_j83717502534258_2_alg».proof.Proof.Gen.KernelIdeal.Skeleton
import proofs.«128960_j83717502534258_2_alg».proof.Proof.Gen.KernelIdeal.Launch
import proofs.«128960_j83717502534258_2_alg».proof.Proof.Gen.KernelIdeal.Points
import proofs.«128960_j83717502534258_2_alg».proof.Proof.Gen.KernelIdeal.Frame
import proofs.«128960_j83717502534258_2_alg».proof.Proof.Gen.ReferenceIdeal
import proofs.«128960_j83717502534258_2_alg».proof.Proof.Gen.Pre_finite_inputs
import proofs.«128960_j83717502534258_2_alg».proof.Proof.RefRun
import proofs.«128960_j83717502534258_2_alg».proof.Proof.RefRead
import proofs.«128960_j83717502534258_2_alg».proof.Proof.KernelValue
import proofs.«128960_j83717502534258_2_alg».proof.Proof.RefValue
import proofs.«128960_j83717502534258_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both programs run, and both results are `Result.result` of the arguments:
    the kernel's by its run, the reference's by its run read back and the bridge. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2.1, (hagree c).2.2.2.2]
  exact (Cert.ReferenceIdeal.ReadP.val_main_v39_eq _ _ _ _ _).trans (Cert.Bridge.result_eq _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
